-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x5x64x2048 : Shape := ⟨4, ![1, 5, 64, 2048]⟩
abbrev S1x512x64x2048 : Shape := ⟨4, ![1, 512, 64, 2048]⟩
abbrev S512 : Shape := ⟨1, ![512]⟩
abbrev S_ : Shape := ⟨0, ![]⟩

class Facts : Prop where
  bcast_S_S1x5x64x2048 : S_.BroadcastsInDim S1x5x64x2048 (![] : Fin 0 → Fin S1x5x64x2048.rank)
  reducesTo_S1x5x64x2048_S_d0_1_2_3 : S1x5x64x2048.ReducesTo [0, 1, 2, 3] S_
  h_S_ : 0 < S_.numel
  bcast_S_S1x512x64x2048 : S_.BroadcastsInDim S1x512x64x2048 (![] : Fin 0 → Fin S1x512x64x2048.rank)
  reducesTo_S1x512x64x2048_S_d0_1_2_3 : S1x512x64x2048.ReducesTo [0, 1, 2, 3] S_

variable [Facts]

def fn {F : FTy → Type} [FloatOps F] (main_arg0 : FVec F S1x5x64x2048 .f32) (main_arg1 : FVec F S1x512x64x2048 .f32) (main_arg2 : IVec S512 32) : IVec S_ 1 :=
  let main_v0 : FVec F S1x5x64x2048 .f32 := Host.absf main_arg0
  let main_cst : FVec F S_ .f32 := constant S_ .f32 0x7F800000#32
  let main_v1 : FVec F S1x5x64x2048 .f32 := broadcastInDim S1x5x64x2048 ![] bcast_S_S1x5x64x2048 main_cst
  let main_v2 : IVec S1x5x64x2048 1 := cmpf .olt main_v0 main_v1
  let main_c : IVec S_ 1 := constantI S_ 1 1#1
  let main_v3 : IVec S_ 1 := (fun x v => Host.reduce IntOp.andi x v reducesTo_S1x5x64x2048_S_d0_1_2_3 h_S_) main_v2 main_c
  let main_v4 : FVec F S1x512x64x2048 .f32 := Host.absf main_arg1
  let main_cst_0 : FVec F S_ .f32 := constant S_ .f32 0x7F800000#32
  let main_v5 : FVec F S1x512x64x2048 .f32 := broadcastInDim S1x512x64x2048 ![] bcast_S_S1x512x64x2048 main_cst_0
  let main_v6 : IVec S1x512x64x2048 1 := cmpf .olt main_v4 main_v5
  let main_c_1 : IVec S_ 1 := constantI S_ 1 1#1
  let main_v7 : IVec S_ 1 := (fun x v => Host.reduce IntOp.andi x v reducesTo_S1x512x64x2048_S_d0_1_2_3 h_S_) main_v6 main_c_1
  let main_v8 : IVec S_ 1 := andi main_v3 main_v7
  main_v8
-- ==== Kernel.lean ====
abbrev S1x5x64x2048 : Shape := ⟨4, ![1, 5, 64, 2048]⟩
abbrev S1x512x64x2048 : Shape := ⟨4, ![1, 512, 64, 2048]⟩
abbrev S512 : Shape := ⟨1, ![512]⟩
abbrev S_ : Shape := ⟨0, ![]⟩
abbrev S1x5x2048 : Shape := ⟨3, ![1, 5, 2048]⟩
abbrev S5x2048 : Shape := ⟨2, ![5, 2048]⟩
abbrev S512x5 : Shape := ⟨2, ![512, 5]⟩
abbrev S1x32x64x2048 : Shape := ⟨4, ![1, 32, 64, 2048]⟩
abbrev S32x5 : Shape := ⟨2, ![32, 5]⟩
abbrev S32x64x2048 : Shape := ⟨3, ![32, 64, 2048]⟩
abbrev S32x2048 : Shape := ⟨2, ![32, 2048]⟩
abbrev S5 : Shape := ⟨1, ![5]⟩
abbrev S32 : Shape := ⟨1, ![32]⟩
abbrev S2048x5 : Shape := ⟨2, ![2048, 5]⟩
abbrev S32x1 : Shape := ⟨2, ![32, 1]⟩
abbrev S1x5 : Shape := ⟨2, ![1, 5]⟩
abbrev S512x1 : Shape := ⟨2, ![512, 1]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 56
  | .vmem => 5
  | .smem => 0
  | _ => 0

abbrev bufTy : (tb : Table) → Fin (tcTables nBuf tb) → BufTy
  | .hbm, ⟨0, _⟩ => ⟨S1x5x64x2048, .f32⟩
  | .hbm, ⟨1, _⟩ => ⟨S1x512x64x2048, .f32⟩
  | .hbm, ⟨2, _⟩ => ⟨S512, .i32⟩
  | .hbm, ⟨3, _⟩ => ⟨S_, .f32⟩
  | .hbm, ⟨4, _⟩ => ⟨S1x5x2048, .f32⟩
  | .hbm, ⟨5, _⟩ => ⟨S_, .f32⟩
  | .hbm, ⟨6, _⟩ => ⟨S1x5x2048, .f32⟩
  | .hbm, ⟨7, _⟩ => ⟨S1x5x2048, .f32⟩
  | .hbm, ⟨8, _⟩ => ⟨S5x2048, .f32⟩
  | .hbm, ⟨9, _⟩ => ⟨S512x5, .f32⟩
  | .hbm, ⟨10, _⟩ => ⟨S_, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S512x1, .f32⟩
  | .hbm, ⟨16, _⟩ => ⟨S512x5, .f32⟩
  | .hbm, ⟨17, _⟩ => ⟨S512x5, .f32⟩
  | .hbm, ⟨18, _⟩ => ⟨S512x5, .f32⟩
  | .hbm, ⟨19, _⟩ => ⟨S_, .f32⟩
  | .hbm, ⟨20, _⟩ => ⟨S512, .f32⟩
  | .hbm, ⟨21, _⟩ => ⟨S512x1, .f32⟩
  | .hbm, ⟨22, _⟩ => ⟨S512x1, .f32⟩
  | .hbm, ⟨23, _⟩ => ⟨S512x5, .f32⟩
  | .hbm, ⟨24, _⟩ => ⟨S512x5, .f32⟩
  | .hbm, ⟨25, _⟩ => ⟨S512x1, .i32⟩
  | .hbm, ⟨26, _⟩ => ⟨S_, .i32⟩
  | .hbm, ⟨27, _⟩ => ⟨S512x1, .i32⟩
  | .hbm, ⟨28, _⟩ => ⟨S512x1, .i1⟩
  | .hbm, ⟨29, _⟩ => ⟨S_, .i32⟩
  | .hbm, ⟨30, _⟩ => ⟨S512x1, .i32⟩
  | .hbm, ⟨31, _⟩ => ⟨S512x1, .i32⟩
  | .hbm, ⟨32, _⟩ => ⟨S512x1, .i32⟩
  | .hbm, ⟨33, _⟩ => ⟨S512x1x1, .i32⟩
  | .hbm, ⟨34, _⟩ => ⟨S1, .i32⟩
  | .hbm, ⟨35, _⟩ => ⟨S_, .i32⟩
  | .hbm, ⟨36, _⟩ => ⟨S512x1x1, .i32⟩
  | .hbm, ⟨37, _⟩ => ⟨S512x1x1, .i1⟩
  | .hbm, ⟨38, _⟩ => ⟨S1x1x1, .i32⟩
  | .hbm, ⟨39, _⟩ => ⟨S512x1x1, .i32⟩
  | .hbm, ⟨40, _⟩ => ⟨S512x1x1, .i1⟩
  | .hbm, ⟨41, _⟩ => ⟨S512x1x1, .i1⟩
  | .hbm, ⟨42, _⟩ => ⟨S_, .i1⟩
  | .hbm, ⟨43, _⟩ => ⟨S512x1, .i1⟩
  | .hbm, ⟨44, _⟩ => ⟨S512x1, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S512x5, .f32⟩
  | .hbm, ⟨55, _⟩ => ⟨S512x5, .f32⟩
  | .local _ .vmem, ⟨0, _⟩ => ⟨S1x32x64x2048, .f32⟩
  | .local _ .vmem, ⟨1, _⟩ => ⟨S1x32x64x2048, .f32⟩
  | .local _ .vmem, ⟨2, _⟩ => ⟨S5x2048, .f32⟩
  | .local _ .vmem, ⟨3, _⟩ => ⟨S32x5, .f32⟩
  | .local _ .vmem, ⟨4, _⟩ => ⟨S32x5, .f32⟩
  | _, _ => ⟨S1x5x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_call0_cst_0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst_1 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_v5 : Ref sig .tc := ⟨.hbm, 24, rfl⟩
abbrev main_v6 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_cst : Ref sig .tc := ⟨.hbm, 45, rfl⟩
abbrev main_call1_v14 : Ref sig .tc := ⟨.hbm, 46, rfl⟩
abbrev main_v7 : Ref sig .tc := ⟨.hbm, 47, rfl⟩
abbrev main_cst_1 : Ref sig .tc := ⟨.hbm, 48, rfl⟩
abbrev main_v8 : Ref sig .tc := ⟨.hbm, 49, rfl⟩
abbrev main_cst_2 : Ref sig .tc := ⟨.hbm, 50, rfl⟩
abbrev main_v9 : Ref sig .tc := ⟨.hbm, 51, rfl⟩
abbrev main_v10 : Ref sig .tc := ⟨.hbm, 52, rfl⟩
abbrev main_cst_3 : Ref sig .tc := ⟨.hbm, 53, rfl⟩
abbrev main_v11 : Ref sig .tc := ⟨.hbm, 54, rfl⟩
abbrev main_v12 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1x5x64x2048_S1x5x2048_d2 : S1x5x64x2048.ReducesTo [2] S1x5x2048
  h_S_ : 0 < S_.numel
  bcast_S_S1x5x2048 : S_.BroadcastsInDim S1x5x2048 (![] : Fin 0 → Fin S1x5x2048.rank)
  shapeCasts_S1x5x2048_S5x2048 : S1x5x2048.ShapeCasts S5x2048
  inb_S1x32x64x2048_S1x32x64x2048_0_0_0_0 : ∀ a, (![0, 0, 0, 0] : Fin 4 → Nat) a + S1x32x64x2048.size a ≤ S1x32x64x2048.size a
  h_S1x32x64x2048 : 0 < S1x32x64x2048.numel
  shapeCasts_S1x32x64x2048_S32x64x2048 : S1x32x64x2048.ShapeCasts S32x64x2048
  reduces_S32x64x2048_S32x2048 : S32x64x2048.Reduces [1] S32x2048
  inb_S5x2048_S5x2048_0_0 : ∀ a, (![0, 0] : Fin 2 → Nat) a + S5x2048.size a ≤ S5x2048.size a
  h_S5x2048 : 0 < S5x2048.numel
  shapeCasts_S5x2048_S5x2048 : S5x2048.ShapeCasts S5x2048
  reduces_S5x2048_S5 : S5x2048.Reduces [1] S5
  reduces_S32x2048_S32 : S32x2048.Reduces [1] S32
  transposes_S5x2048_p1_0_S2048x5 : S5x2048.Transposes [1, 0] S2048x5
  shapeCasts_S32_S32x1 : S32.ShapeCasts S32x1
  shapeCasts_S5_S1x5 : S5.ShapeCasts S1x5
  broadcasts_S32x1_S32x5 : S32x1.Broadcasts S32x5
  broadcasts_S1x5_S32x5 : S1x5.Broadcasts S32x5
  inb_S32x5_S32x5_0_0 : ∀ a, (![0, 0] : Fin 2 → Nat) a + S32x5.size a ≤ S32x5.size a
  h_S32x5 : 0 < S32x5.numel
  reducesTo_S512x5_S512_d1 : S512x5.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x5_0_1 : S512x1.BroadcastsInDim S512x5 (![0, 1] : Fin 2 → Fin S512x5.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  reducesTo_S512x1_S_d0_1 : S512x1.ReducesTo [0, 1] S_
  bcast_S_S512x5 : S_.BroadcastsInDim S512x5 (![] : Fin 0 → Fin S512x5.rank)
  dot_S32x2048_S2048x5_S32x5_1_0_0_1_n_n_wf : DotDims.WF S32x2048 S2048x5 S32x5 [1] [0] [0] [1] [] []
  gather_S512x5_S512x1x1_S512x1_n_1_0_0_1_2_11_wf : GatherDims.WF S512x5 S512x1x1 S512x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x64x2048.size a ≤ S1x512x64x2048.size a
  hwx0_0 : ∀ i : grid0.Coords, EltTy.bits .f32 = 32 ∨ (Rect.block (s := S1x512x64x2048) S1x32x64x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x2048.size a ≤ S5x2048.size a
  hwx0_1 : ∀ i : grid0.Coords, EltTy.bits .f32 = 32 ∨ (Rect.block (s := S5x2048) S5x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x5.size a ≤ S512x5.size a
  hwx0_2 : ∀ i : grid0.Coords, EltTy.bits .f32 = 32 ∨ (Rect.block (s := S512x5) S32x5.size (cc0_transform_2 i) (hinb0_2 i)).WholeWords (EltTy.packing .f32)

variable [Facts₀]

def dot_S32x2048_S2048x5_S32x5_1_0_0_1_n_n : DotDims S32x2048 S2048x5 S32x5 where
  lhsContracting := [1]
  rhsContracting := [0]
  lhsNonContracting := [0]
  rhsNonContracting := [1]
  lhsBatch := []
  rhsBatch := []
  wf := dot_S32x2048_S2048x5_S32x5_1_0_0_1_n_n_wf
def gather_S512x5_S512x1x1_S512x1_n_1_0_0_1_2_11 : GatherDims S512x5 S512x1x1 S512x1 where
  offsetDims := []
  collapsedSliceDims := [1]
  operandBatchingDims := [0]
  startIndicesBatchingDims := [0]
  startIndexMap := [1]
  indexVectorDim := 2
  sliceSizes := ![1, 1]
  wf := gather_S512x5_S512x1x1_S512x1_n_1_0_0_1_2_11_wf

abbrev win0_0 : Pipeline.Window sig grid0 :=
  Pipeline.Window.ofSpec (Memref.whole main_arg1) S1x32x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S5x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x5x64x2048 : Shape := ⟨4, ![1, 5, 64, 2048]⟩
abbrev S1x512x64x2048 : Shape := ⟨4, ![1, 512, 64, 2048]⟩
abbrev S512 : Shape := ⟨1, ![512]⟩
abbrev S_ : Shape := ⟨0, ![]⟩
abbrev S1x5x2048 : Shape := ⟨3, ![1, 5, 2048]⟩
abbrev S1x512x2048 : Shape := ⟨3, ![1, 512, 2048]⟩
abbrev S1x512x5 : Shape := ⟨3, ![1, 512, 5]⟩
abbrev S1x512 : Shape := ⟨2, ![1, 512]⟩
abbrev S1x5 : Shape := ⟨2, ![1, 5]⟩
abbrev S1x512x1 : Shape := ⟨3, ![1, 512, 1]⟩
abbrev S1x1x5 : Shape := ⟨3, ![1, 1, 5]⟩
abbrev S512x5 : Shape := ⟨2, ![512, 5]⟩
abbrev S512x1 : Shape := ⟨2, ![512, 1]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S1x5x64x2048, .f32⟩
  | .hbm, ⟨1, _⟩ => ⟨S1x512x64x2048, .f32⟩
  | .hbm, ⟨2, _⟩ => ⟨S512, .i32⟩
  | .hbm, ⟨3, _⟩ => ⟨S_, .f32⟩
  | .hbm, ⟨4, _⟩ => ⟨S1x5x2048, .f32⟩
  | .hbm, ⟨5, _⟩ => ⟨S_, .f32⟩
  | .hbm, ⟨6, _⟩ => ⟨S1x5x2048, .f32⟩
  | .hbm, ⟨7, _⟩ => ⟨S1x5x2048, .f32⟩
  | .hbm, ⟨8, _⟩ => ⟨S_, .f32⟩
  | .hbm, ⟨9, _⟩ => ⟨S1x512x2048, .f32⟩
  | .hbm, ⟨10, _⟩ => ⟨S_, .f32⟩
  | .hbm, ⟨11, _⟩ => ⟨S1x512x2048, .f32⟩
  | .hbm, ⟨12, _⟩ => ⟨S1x512x2048, .f32⟩
  | .hbm, ⟨13, _⟩ => ⟨S1x512x5, .f32⟩
  | .hbm, ⟨14, _⟩ => ⟨S1x512x2048, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x5x2048, .f32⟩
  | .hbm, ⟨19, _⟩ => ⟨S_, .f32⟩
  | .hbm, ⟨20, _⟩ => ⟨S1x5, .f32⟩
  | .hbm, ⟨21, _⟩ => ⟨S1x5, .f32⟩
  | .hbm, ⟨22, _⟩ => ⟨S1x512x1, .f32⟩
  | .hbm, ⟨23, _⟩ => ⟨S1x1x5, .f32⟩
  | .hbm, ⟨24, _⟩ => ⟨S1x512x5, .f32⟩
  | .hbm, ⟨25, _⟩ => ⟨S1x512x5, .f32⟩
  | .hbm, ⟨26, _⟩ => ⟨S1x512x5, .f32⟩
  | .hbm, ⟨27, _⟩ => ⟨S_, .f32⟩
  | .hbm, ⟨28, _⟩ => ⟨S1x512x5, .f32⟩
  | .hbm, ⟨29, _⟩ => ⟨S1x512x5, .f32⟩
  | .hbm, ⟨30, _⟩ => ⟨S1x512x5, .f32⟩
  | .hbm, ⟨31, _⟩ => ⟨S512x5, .f32⟩
  | .hbm, ⟨32, _⟩ => ⟨S_, .f32⟩
  | .hbm, ⟨33, _⟩ => ⟨S512, .f32⟩
  | .hbm, ⟨34, _⟩ => ⟨S_, .f32⟩
  | .hbm, ⟨35, _⟩ => ⟨S512, .f32⟩
  | .hbm, ⟨36, _⟩ => ⟨S512, .f32⟩
  | .hbm, ⟨37, _⟩ => ⟨S512x1, .f32⟩
  | .hbm, ⟨38, _⟩ => ⟨S512x5, .f32⟩
  | .hbm, ⟨39, _⟩ => ⟨S512x5, .f32⟩
  | .hbm, ⟨40, _⟩ => ⟨S512x5, .f32⟩
  | .hbm, ⟨41, _⟩ => ⟨S_, .f32⟩
  | .hbm, ⟨42, _⟩ => ⟨S512, .f32⟩
  | .hbm, ⟨43, _⟩ => ⟨S512x1, .f32⟩
  | .hbm, ⟨44, _⟩ => ⟨S512x1, .f32⟩
  | .hbm, ⟨45, _⟩ => ⟨S512x5, .f32⟩
  | .hbm, ⟨46, _⟩ => ⟨S512x5, .f32⟩
  | .hbm, ⟨47, _⟩ => ⟨S512x1, .i32⟩
  | .hbm, ⟨48, _⟩ => ⟨S_, .i32⟩
  | .hbm, ⟨49, _⟩ => ⟨S512x1, .i32⟩
  | .hbm, ⟨50, _⟩ => ⟨S512x1, .i1⟩
  | .hbm, ⟨51, _⟩ => ⟨S_, .i32⟩
  | .hbm, ⟨52, _⟩ => ⟨S512x1, .i32⟩
  | .hbm, ⟨53, _⟩ => ⟨S512x1, .i32⟩
  | .hbm, ⟨54, _⟩ => ⟨S512x1, .i32⟩
  | .hbm, ⟨55, _⟩ => ⟨S512x1x1, .i32⟩
  | .hbm, ⟨56, _⟩ => ⟨S1, .i32⟩
  | .hbm, ⟨57, _⟩ => ⟨S_, .i32⟩
  | .hbm, ⟨58, _⟩ => ⟨S512x1x1, .i32⟩
  | .hbm, ⟨59, _⟩ => ⟨S512x1x1, .i1⟩
  | .hbm, ⟨60, _⟩ => ⟨S1x1x1, .i32⟩
  | .hbm, ⟨61, _⟩ => ⟨S512x1x1, .i32⟩
  | .hbm, ⟨62, _⟩ => ⟨S512x1x1, .i1⟩
  | .hbm, ⟨63, _⟩ => ⟨S512x1x1, .i1⟩
  | .hbm, ⟨64, _⟩ => ⟨S_, .i1⟩
  | .hbm, ⟨65, _⟩ => ⟨S512x1, .i1⟩
  | .hbm, ⟨66, _⟩ => ⟨S512x1, .f32⟩
  | .hbm, ⟨67, _⟩ => ⟨S_, .f32⟩
  | .hbm, ⟨68, _⟩ => ⟨S512x1, .f32⟩
  | .hbm, ⟨69, _⟩ => ⟨S512x1, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S512x5, .f32⟩
  | .hbm, ⟨77, _⟩ => ⟨S512x5, .f32⟩
  | _, _ => ⟨S1x5x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v7 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_call2_cst : Ref sig .tc := ⟨.hbm, 32, rfl⟩
abbrev main_call2_v0 : Ref sig .tc := ⟨.hbm, 33, rfl⟩
abbrev main_call2_cst_0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_cst_1 : Ref sig .tc := ⟨.hbm, 41, rfl⟩
abbrev main_call2_v7 : Ref sig .tc := ⟨.hbm, 42, rfl⟩
abbrev main_call2_v8 : Ref sig .tc := ⟨.hbm, 43, rfl⟩
abbrev main_call2_v9 : Ref sig .tc := ⟨.hbm, 44, rfl⟩
abbrev main_call2_v10 : Ref sig .tc := ⟨.hbm, 45, rfl⟩
abbrev main_v18 : Ref sig .tc := ⟨.hbm, 46, rfl⟩
abbrev main_v19 : Ref sig .tc := ⟨.hbm, 47, rfl⟩
abbrev main_call3_c : Ref sig .tc := ⟨.hbm, 48, rfl⟩
abbrev main_call3_v0 : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_c_2 : Ref sig .tc := ⟨.hbm, 57, rfl⟩
abbrev main_call3_v6 : Ref sig .tc := ⟨.hbm, 58, rfl⟩
abbrev main_call3_v7 : Ref sig .tc := ⟨.hbm, 59, rfl⟩
abbrev main_call3_v8 : Ref sig .tc := ⟨.hbm, 60, rfl⟩
abbrev main_call3_v9 : Ref sig .tc := ⟨.hbm, 61, rfl⟩
abbrev main_call3_v10 : Ref sig .tc := ⟨.hbm, 62, rfl⟩
abbrev main_call3_v11 : Ref sig .tc := ⟨.hbm, 63, rfl⟩
abbrev main_call3_c_3 : Ref sig .tc := ⟨.hbm, 64, rfl⟩
abbrev main_call3_v12 : Ref sig .tc := ⟨.hbm, 65, rfl⟩
abbrev main_call3_v13 : Ref sig .tc := ⟨.hbm, 66, rfl⟩
abbrev main_call3_cst : Ref sig .tc := ⟨.hbm, 67, rfl⟩
abbrev main_call3_v14 : Ref sig .tc := ⟨.hbm, 68, rfl⟩
abbrev main_v20 : Ref sig .tc := ⟨.hbm, 69, rfl⟩
abbrev main_cst_4 : Ref sig .tc := ⟨.hbm, 70, rfl⟩
abbrev main_v21 : Ref sig .tc := ⟨.hbm, 71, rfl⟩
abbrev main_cst_5 : Ref sig .tc := ⟨.hbm, 72, rfl⟩
abbrev main_v22 : Ref sig .tc := ⟨.hbm, 73, rfl⟩
abbrev main_v23 : Ref sig .tc := ⟨.hbm, 74, rfl⟩
abbrev main_cst_6 : Ref sig .tc := ⟨.hbm, 75, rfl⟩
abbrev main_v24 : Ref sig .tc := ⟨.hbm, 76, rfl⟩
abbrev main_v25 : Ref sig .tc := ⟨.hbm, 77, rfl⟩

abbrev nD : Nat := 1
abbrev τ : Topo := Topo.v7x

variable {F : FTy → Type} [FloatOps F]

class Facts₀ : Prop where
  reducesTo_S1x5x64x2048_S1x5x2048_d2 : S1x5x64x2048.ReducesTo [2] S1x5x2048
  h_S_ : 0 < S_.numel
  bcast_S_S1x5x2048 : S_.BroadcastsInDim S1x5x2048 (![] : Fin 0 → Fin S1x5x2048.rank)
  reducesTo_S1x512x64x2048_S1x512x2048_d2 : S1x512x64x2048.ReducesTo [2] S1x512x2048
  bcast_S_S1x512x2048 : S_.BroadcastsInDim S1x512x2048 (![] : Fin 0 → Fin S1x512x2048.rank)
  reducesTo_S1x512x2048_S1x512_d2 : S1x512x2048.ReducesTo [2] S1x512
  reducesTo_S1x5x2048_S1x5_d2 : S1x5x2048.ReducesTo [2] S1x5
  bcast_S1x512_S1x512x1_0_1 : S1x512.BroadcastsInDim S1x512x1 (![0, 1] : Fin 2 → Fin S1x512x1.rank)
  bcast_S1x5_S1x1x5_0_2 : S1x5.BroadcastsInDim S1x1x5 (![0, 2] : Fin 2 → Fin S1x1x5.rank)
  bcast_S1x512x1_S1x512x5_0_1_2 : S1x512x1.BroadcastsInDim S1x512x5 (![0, 1, 2] : Fin 3 → Fin S1x512x5.rank)
  bcast_S1x1x5_S1x512x5_0_1_2 : S1x1x5.BroadcastsInDim S1x512x5 (![0, 1, 2] : Fin 3 → Fin S1x512x5.rank)
  bcast_S_S1x512x5 : S_.BroadcastsInDim S1x512x5 (![] : Fin 0 → Fin S1x512x5.rank)
  shapeCasts_S1x512x5_S512x5 : S1x512x5.ShapeCasts S512x5
  reducesTo_S512x5_S512_d1 : S512x5.ReducesTo [1] S512
  bcast_S_S512 : S_.BroadcastsInDim S512 (![] : Fin 0 → Fin S512.rank)
  bcast_S512_S512x1_0 : S512.BroadcastsInDim S512x1 (![0] : Fin 1 → Fin S512x1.rank)
  bcast_S512x1_S512x5_0_1 : S512x1.BroadcastsInDim S512x5 (![0, 1] : Fin 2 → Fin S512x5.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  reducesTo_S512x1_S_d0_1 : S512x1.ReducesTo [0, 1] S_
  bcast_S_S512x5 : S_.BroadcastsInDim S512x5 (![] : Fin 0 → Fin S512x5.rank)
  dot_S1x512x2048_S1x5x2048_S1x512x5_2_2_1_1_0_0_wf : DotDims.WF S1x512x2048 S1x5x2048 S1x512x5 [2] [2] [1] [1] [0] [0]
  gather_S512x5_S512x1x1_S512x1_n_1_0_0_1_2_11_wf : GatherDims.WF S512x5 S512x1x1 S512x1 [] [1] [0] [1] [0] 2 ![1, 1]

variable [Facts₀]

def dot_S1x512x2048_S1x5x2048_S1x512x5_2_2_1_1_0_0 : DotDims S1x512x2048 S1x5x2048 S1x512x5 where
  lhsContracting := [2]
  rhsContracting := [2]
  lhsNonContracting := [1]
  rhsNonContracting := [1]
  lhsBatch := [0]
  rhsBatch := [0]
  wf := dot_S1x512x2048_S1x5x2048_S1x512x5_2_2_1_1_0_0_wf
def gather_S512x5_S512x1x1_S512x1_n_1_0_0_1_2_11 : GatherDims S512x5 S512x1x1 S512x1 where
  offsetDims := []
  collapsedSliceDims := [1]
  operandBatchingDims := [0]
  startIndicesBatchingDims := [0]
  startIndexMap := [1]
  indexVectorDim := 2
  sliceSizes := ![1, 1]
  wf := gather_S512x5_S512x1x1_S512x1_n_1_0_0_1_2_11_wf

class Facts : Prop extends Facts₀ where

variable [Facts]
-- ==== Proof.LibMeanPoolCosine.lean ====
/-
  Cosine similarity of mean-pooled rows, on the extended reals.

  A row of length T is pooled to its mean either as (sum) · (1/64) or as (sum) / 64.  Both literals are exact binary
  values — 64 and 1/64 — and on the extended reals dividing by a nonzero real IS multiplying by its inverse, at the
  infinities too, so the two poolings are one function with no finiteness assumption.

  From pooled query rows qp[q, ·] and pooled support rows sp[s, ·] the similarity table is

      cos[q, s] = (Σ_d qp[q,d] · sp[s,d]) / max(√(Σ_d qp[q,d]²) · √(Σ_d sp[s,d]²), ε),

  with ε the 32-bit float nearest 1e-8.  Everything is stated over abstract finite index types.
-/
import Idealize.ShloMosaic.PureOps.Ideal

noncomputable section

namespace Cert.CosinePool

open Idealize.ShloMosaic

/-- The float literal 64.0 is the real 64. -/
theorem ofBits_64 : Ideal.ofBits .f32 0x42800000#32 = ((64 : ℝ) : EReal) := by
  simp [Ideal.ofBits, Ideal.ieee, -EReal.coe_mul]; norm_num

/-- The float literal 0.015625 is the real 1/64. -/
theorem ofBits_inv64 : Ideal.ofBits .f32 0x3C800000#32 = ((1 / 64 : ℝ) : EReal) := by
  simp [Ideal.ofBits, Ideal.ieee, -EReal.coe_mul]; norm_num

/-- The float zero is the extended real 0. -/
theorem ofBits_zero : Ideal.ofBits .f32 0x00000000#32 = 0 := by
  simp [Ideal.ofBits, Ideal.ieee]

/-- Multiplying by 1/64 is dividing by 64, on every extended real. -/
theorem mul_inv64_eq_div64 (x : EReal) :
    x * Ideal.ofBits .f32 0x3C800000#32 = Ideal.div x (Ideal.ofBits .f32 0x42800000#32) := by
  rw [ofBits_64, ofBits_inv64, Ideal.div_coe (by norm_num : (64 : ℝ) ≠ 0)]

variable {Q S T D : ℕ}

/-- The mean over the middle axis as a quotient by 64. -/
def poolDiv (X : Fin Q → Fin T → Fin D → EReal) (q : Fin Q) (d : Fin D) : EReal :=
  Ideal.div (∑ t, X q t d) (Ideal.ofBits .f32 0x42800000#32)

/-- The mean over the middle axis as a product with 1/64. -/
def poolMul (X : Fin Q → Fin T → Fin D → EReal) (q : Fin Q) (d : Fin D) : EReal :=
  (∑ t, X q t d) * Ideal.ofBits .f32 0x3C800000#32

/-- The two poolings are one function. -/
theorem poolMul_eq_poolDiv (X : Fin Q → Fin T → Fin D → EReal) : poolMul X = poolDiv X :=
  funext fun _ => funext fun _ => mul_inv64_eq_div64 _

/-- The cosine similarity of pooled query row q and pooled support row s, with the floor ε under the product of norms. -/
def cosine (qp : Fin Q → Fin D → EReal) (sp : Fin S → Fin D → EReal) (q : Fin Q) (s : Fin S) : EReal :=
  Ideal.div (∑ d, qp q d * sp s d)
    (max (Ideal.sqrt (∑ d, qp q d * qp q d) * Ideal.sqrt (∑ d, sp s d * sp s d)) (Ideal.ofBits .f32 0x322BCC77#32))

/-- The similarity of two rows depends on those two rows only. -/
theorem cosine_congr {Q' S' : ℕ} {qp : Fin Q → Fin D → EReal} {sp : Fin S → Fin D → EReal}
    {qp' : Fin Q' → Fin D → EReal} {sp' : Fin S' → Fin D → EReal} {q : Fin Q} {s : Fin S} {q' : Fin Q'} {s' : Fin S'}
    (hq : qp q = qp' q') (hs : sp s = sp' s') : cosine qp sp q s = cosine qp' sp' q' s' := by
  unfold cosine; rw [hq, hs]

end Cert.CosinePool

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.Payload.lean ====
/-
  What one grid point computes, read at an index.

  The body loads a [1, 32, 64, 2048] block of query rows and the whole [5, 2048] array of pooled support rows.  It
  pools each of the 32 query rows as (sum over the 64 time steps) · (1/64), and stores, at (p, s), the cosine
  similarity of pooled query row p of the block and support row s: the contraction over the feature axis divided by
  the larger of the product of the two norms and ε.
-/
import proofs.«132700_j12781822673485_2_alg».proof.Proof.Gen.KernelIdeal.Skeleton
import proofs.«132700_j12781822673485_2_alg».proof.Proof.LibMeanPoolCosine
import proofs.«132700_j12781822673485_2_alg».proof.Proof.LibContractSum
import proofs.«132700_j12781822673485_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelValue

open Cert.KernelIdeal Cert.KernelIdeal.Gen Idealize.ShloMosaic Idealize.ShloMosaic.ValueIdx Cert.CosinePool

/-- The rows of a loaded [1, 32, 64, 2048] block. -/
def blockRows (x0 : Vec Ideal S1x32x64x2048 .f32) (p : Fin 32) (t : Fin 64) (d : Fin 2048) : EReal :=
  x0 (ix4 (0 : Fin 1) p t d)

/-- The body's pooled query rows: the block summed over its time axis, times the literal 1/64. -/
def pooled (x0 : Vec Ideal S1x32x64x2048 .f32) : FVec Ideal S32x2048 .f32 :=
  mulf (multiReduction .add [1] S32x2048 (shapeCast S32x64x2048 x0 shapeCasts_S1x32x64x2048_S32x64x2048) 0x00000000#32
      reduces_S32x64x2048_S32x2048 (.inl rfl) rfl)
    (broadcast S32x2048 (Scalar.ofBits .f32 0x3C800000#32))

/-- Row p of the pooled block at feature d is the product form of the mean of row p. -/
theorem pooled_apply (x0 : Vec Ideal S1x32x64x2048 .f32) (p : Fin 32) (d : Fin 2048) :
    pooled x0 (ix2 p d) = poolMul (blockRows x0) p d := by
  unfold pooled poolMul blockRows
  show _ * Ideal.ofBits .f32 0x3C800000#32 = _
  refine congrArg (· * _) ?_
  refine (Ideal.multiReduction_add_single _ _ reduces_S32x64x2048_S32x2048 _ _ (ix2 p d)).trans ?_
  refine Finset.sum_congr rfl fun t _ => ?_
  have e : reduces_S32x64x2048_S32x2048.lift (ix2 p d) t = ix3 p t d := by
    funext a; apply Fin.ext
    match a with | ⟨0, _⟩ => rfl | ⟨1, _⟩ => rfl | ⟨2, _⟩ => rfl
  rw [e]
  exact shapeCast_1abc_abc_apply x0 shapeCasts_S1x32x64x2048_S32x64x2048 p t d

/-- The stored value as a function of the pooled block and the support rows. -/
def table (Y : FVec Ideal S32x2048 .f32) (x1 : FVec Ideal S5x2048 .f32) : FVec Ideal S32x5 .f32 :=
  divf
    (matmul dot_S32x2048_S2048x5_S32x5_1_0_0_1_n_n (some .fp32) Y
      (transpose S2048x5 [1, 0] (shapeCast S5x2048 x1 shapeCasts_S5x2048_S5x2048) transposes_S5x2048_p1_0_S2048x5)
      (constant S32x5 .f32 0x00000000#32))
    (maximumf
      (mulf
        (broadcastTo S32x5 (shapeCast S32x1 (sqrt (multiReduction .add [1] S32 (mulf Y Y) 0x00000000#32 reduces_S32x2048_S32 (.inl rfl) rfl))
          shapeCasts_S32_S32x1) broadcasts_S32x1_S32x5)
        (broadcastTo S32x5 (shapeCast S1x5 (sqrt (multiReduction .add [1] S5
            (mulf (shapeCast S5x2048 x1 shapeCasts_S5x2048_S5x2048) (shapeCast S5x2048 x1 shapeCasts_S5x2048_S5x2048)) 0x00000000#32
            reduces_S5x2048_S5 (.inl rfl) rfl)) shapeCasts_S5_S1x5) broadcasts_S1x5_S32x5))
      (broadcast S32x5 (Scalar.ofBits .f32 0x322BCC77#32)))

/-- The body's payload is the table of its pooled block. -/
theorem pay_eq (x0 : Vec Ideal S1x32x64x2048 .f32) (x1 : Vec Ideal S5x2048 .f32) :
    k0_pay1 x0 x1 = table (pooled x0) x1 := rfl

/-- The left operand's index at output (p, s): its row coordinate is p, whatever the contraction index. -/
theorem lhs_row (i : S32x5.Idx) (q : dot_S32x2048_S2048x5_S32x5_1_0_0_1_n_n.contr.Idx) :
    (dot_S32x2048_S2048x5_S32x5_1_0_0_1_n_n.lhsIdx i q 0).val = (i 0).val := by
  unfold DotDims.lhsIdx
  rw [dif_neg (show ¬(0 : Fin S32x2048.rank) ∈ dot_S32x2048_S2048x5_S32x5_1_0_0_1_n_n.lhsBatch by decide),
    dif_pos (show (0 : Fin S32x2048.rank) ∈ dot_S32x2048_S2048x5_S32x5_1_0_0_1_n_n.lhsNonContracting by decide)]
  rfl

/-- The right operand's index at output (p, s): its column coordinate is s, whatever the contraction index. -/
theorem rhs_col (i : S32x5.Idx) (q : dot_S32x2048_S2048x5_S32x5_1_0_0_1_n_n.contr.Idx) :
    (dot_S32x2048_S2048x5_S32x5_1_0_0_1_n_n.rhsIdx i q 1).val = (i 1).val := by
  unfold DotDims.rhsIdx
  rw [dif_neg (show ¬(1 : Fin S2048x5.rank) ∈ dot_S32x2048_S2048x5_S32x5_1_0_0_1_n_n.rhsBatch by decide),
    dif_pos (show (1 : Fin S2048x5.rank) ∈ dot_S32x2048_S2048x5_S32x5_1_0_0_1_n_n.rhsNonContracting by decide)]
  rfl

/-- At output (p, s) and contraction coordinate k the left operand is read at (p, k). -/
theorem lhsIdx_eq (p : Fin 32) (s : Fin 5) (k : Fin 2048) :
    dot_S32x2048_S2048x5_S32x5_1_0_0_1_n_n.lhsIdx (ix2 p s)
      ((contrEquiv1 dot_S32x2048_S2048x5_S32x5_1_0_0_1_n_n 2048 rfl rfl).symm k) = ix2 p k := by
  have hk := contrEquiv1_symm_val dot_S32x2048_S2048x5_S32x5_1_0_0_1_n_n 2048 rfl rfl k
  funext a; apply Fin.ext
  match a with
  | ⟨0, _⟩ => exact lhs_row _ _
  | ⟨1, _⟩ => exact (dot_S32x2048_S2048x5_S32x5_1_0_0_1_n_n.lhsIdx_val_of_single rfl (ix2 p s) _).trans hk

/-- At output (p, s) and contraction coordinate k the right operand is read at (k, s). -/
theorem rhsIdx_eq (p : Fin 32) (s : Fin 5) (k : Fin 2048) :
    dot_S32x2048_S2048x5_S32x5_1_0_0_1_n_n.rhsIdx (ix2 p s)
      ((contrEquiv1 dot_S32x2048_S2048x5_S32x5_1_0_0_1_n_n 2048 rfl rfl).symm k) = ix2 k s := by
  have hk := contrEquiv1_symm_val dot_S32x2048_S2048x5_S32x5_1_0_0_1_n_n 2048 rfl rfl k
  funext a; apply Fin.ext
  match a with
  | ⟨0, _⟩ => exact (dot_S32x2048_S2048x5_S32x5_1_0_0_1_n_n.rhsIdx_val_of_single rfl (ix2 p s) _).trans hk
  | ⟨1, _⟩ => exact rhs_col _ _

/-- The table at (p, s) is the cosine similarity of row p of the pooled block and support row s. -/
theorem table_apply (Y : FVec Ideal S32x2048 .f32) (x1 : FVec Ideal S5x2048 .f32) (p : Fin 32) (s : Fin 5) :
    table Y x1 (ix2 p s) = cosine (fun p d => Y (ix2 p d)) (fun s d => x1 (ix2 s d)) p s := by
  unfold table cosine
  show Ideal.div _ (max (_ * _) (Ideal.ofBits .f32 0x322BCC77#32)) = _
  refine congrArg₂ Ideal.div ?_ (congrArg (max · _) (congrArg₂ (· * ·) ?_ ?_))
  · refine (Cert.LibContractSum.matmul_zero_sum dot_S32x2048_S2048x5_S32x5_1_0_0_1_n_n (some .fp32) 2048 rfl rfl Y _ (ix2 p s)
      (fun k => ix2 p k) (fun k => ix2 k s) (lhsIdx_eq p s) (rhsIdx_eq p s)).trans ?_
    refine Finset.sum_congr rfl fun k _ => congrArg (Y (ix2 p k) * ·) ?_
    refine (transpose_ix2_apply _ transposes_S5x2048_p1_0_S2048x5 k s).trans ?_
    rw [shapeCast_self]
  · refine (Cert.Lib.ColumnLayout.broadcastTo_a1_ab_apply _ broadcasts_S32x1_S32x5 p s (0 : Fin 1)).trans ?_
    refine (Cert.Lib.ColumnLayout.shapeCast_a_a1_apply _ shapeCasts_S32_S32x1 p (0 : Fin 1)).trans ?_
    show Ideal.sqrt _ = _
    refine congrArg Ideal.sqrt ?_
    refine (Ideal.multiReduction_add_single _ _ reduces_S32x2048_S32 _ _ (ix1 p)).trans ?_
    refine Finset.sum_congr rfl fun k _ => ?_
    have e : reduces_S32x2048_S32.lift (ix1 p) k = ix2 p k := by
      funext a; apply Fin.ext
      match a with | ⟨0, _⟩ => rfl | ⟨1, _⟩ => rfl
    rw [e]; rfl
  · refine (broadcastTo_1b_ab_apply _ broadcasts_S1x5_S32x5 p s).trans ?_
    refine (shapeCast_a_1a_apply _ shapeCasts_S5_S1x5 (0 : Fin 1) s).trans ?_
    show Ideal.sqrt _ = _
    refine congrArg Ideal.sqrt ?_
    refine (Ideal.multiReduction_add_single _ _ reduces_S5x2048_S5 _ _ (ix1 s)).trans ?_
    refine Finset.sum_congr rfl fun k _ => ?_
    have e : reduces_S5x2048_S5.lift (ix1 s) k = ix2 s k := by
      funext a; apply Fin.ext
      match a with | ⟨0, _⟩ => rfl | ⟨1, _⟩ => rfl
    rw [e, shapeCast_self]; rfl

/-- The body's payload at (p, s): the cosine similarity of the block's pooled row p (product form) and support row s. -/
theorem pay_apply (x0 : Vec Ideal S1x32x64x2048 .f32) (x1 : Vec Ideal S5x2048 .f32) (p : Fin 32) (s : Fin 5) :
    k0_pay1 x0 x1 (ix2 p s) = cosine (poolMul (blockRows x0)) (fun s d => x1 (ix2 s d)) p s := by
  rw [pay_eq, table_apply]
  refine congrArg (fun f => cosine f (fun s d => x1 (ix2 s d)) p s) ?_
  funext p d
  exact pooled_apply x0 p d

end Cert.KernelValue

end
-- ==== Proof.DistSpec.lean ====
/-
  The similarity table as ONE function of the two argument arrays.

  supp is [1, 5, 64, 2048] and query is [1, 512, 64, 2048].  Each of the 5 support rows and the 512 query rows is
  mean-pooled over its 64 time steps (a quotient by 64), and entry (q, s) of the [512, 5] table is the cosine
  similarity of pooled query row q and pooled support row s.
-/
import proofs.«132700_j12781822673485_2_alg».proof.Proof.LibMeanPoolCosine
import Idealize.ShloMosaic.Lib.ValueIdx

noncomputable section

namespace Cert.CosinePool

open Idealize.ShloMosaic Idealize.ShloMosaic.ValueIdx

/-- The rows of a [1, N, 64, 2048] array: row n at time t and feature d. -/
def rows {N : ℕ} (X : (⟨4, ![1, N, 64, 2048]⟩ : Shape).Idx → EReal) (n : Fin N) (t : Fin 64) (d : Fin 2048) : EReal :=
  X (ix4 (0 : Fin 1) n t d)

/-- The [512, 5] table of cosine similarities of the mean-pooled query rows against the mean-pooled support rows. -/
def dist (supp : (⟨4, ![1, 5, 64, 2048]⟩ : Shape).Idx → EReal) (query : (⟨4, ![1, 512, 64, 2048]⟩ : Shape).Idx → EReal) :
    (⟨2, ![512, 5]⟩ : Shape).Idx → EReal :=
  fun j => cosine (poolDiv (rows query)) (poolDiv (rows supp)) (j 0) (j 1)

/-- The table at (q, s). -/
theorem dist_ix2 (supp : (⟨4, ![1, 5, 64, 2048]⟩ : Shape).Idx → EReal) (query : (⟨4, ![1, 512, 64, 2048]⟩ : Shape).Idx → EReal)
    (q : Fin 512) (s : Fin 5) :
    dist supp query (ix2 q s) = cosine (poolDiv (rows query)) (poolDiv (rows supp)) q s := rfl

end Cert.CosinePool

end
-- ==== Proof.Blocks.lean ====
/-
  From what each grid point writes back to the whole [512, 5] array.

  Grid point t loads query rows 32t … 32t+31 and the whole array of pooled support rows, and writes rows
  32t … 32t+31 of the output.  So every point's block is a restriction of ONE function of the query array and the
  support rows — entry (q, s) is the cosine similarity of query row q, pooled in its product form, and support row
  s — and the 16 blocks tile the 512 rows: row r belongs to point r / 32.
-/
import proofs.«132700_j12781822673485_2_alg».proof.Proof.Gen.KernelIdeal.Frame
import proofs.«132700_j12781822673485_2_alg».proof.Proof.Payload
import proofs.«132700_j12781822673485_2_alg».proof.Proof.DistSpec
import Idealize.ShloMosaic.Lib.Pipeline.Value

noncomputable section

namespace Cert.KernelValue

open Cert.KernelIdeal Cert.KernelIdeal.Gen Idealize.ShloMosaic Idealize.ShloMosaic.ValueIdx Idealize.ShloMosaic.TcCoe
open Idealize.SL.Sem Cert.CosinePool
open Idealize.ShloMosaic.Pipeline (Dat)

variable (m : (ℓ : Loc nD τ sig) → Buf (Elt Ideal) ℓ)

/-- The table from the query array and the already pooled support rows, the query rows pooled in the product form. -/
def tableOf (query : S1x512x64x2048.Idx → EReal) (sp : S5x2048.Idx → EReal) : S512x5.Idx → EReal :=
  fun j => cosine (poolMul (rows query)) (fun s d => sp (ix2 s d)) (j 0) (j 1)

/-- The zero offset of a rank-2 block. -/
theorem zero2 : (![0, 0] : Fin 2 → Nat) = fun _ => 0 := funext fun a => by fin_cases a <;> rfl
/-- The zero offset of a rank-4 block. -/
theorem zero4 : (![0, 0, 0, 0] : Fin 4 → Nat) = fun _ => 0 := funext fun a => by fin_cases a <;> rfl

/-- Where each window's block sits at grid point t: the query block at row-block t, the support rows whole, the
    output block at row-block t. -/
theorem block_positions : ∀ t : Fin cfg0.N,
    win0_0.index t (0 : Fin 4) = 0 ∧ win0_0.index t (1 : Fin 4) = t.val ∧ win0_0.index t (2 : Fin 4) = 0
    ∧ win0_0.index t (3 : Fin 4) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of grid point t's blocks is row 32t + p of the arrays. -/
def rowOf (t : Fin cfg0.N) (p : Fin 32) : Fin 512 :=
  ⟨t.val * 32 + p.val, by have h := lt_of_lt_of_eq t.isLt N_0; have := p.isLt; omega⟩

/-- The query block at point t, read at (0, p, u, d), is the query array at (0, 32t + p, u, d). -/
theorem query_block_read (c : Dev nD) (t : Fin cfg0.N) (p : Fin 32) (u : Fin 64) (d : Fin 2048) :
    iblk m c 0 t (ix4 (0 : Fin 1) p u d) = V m c main_arg1 (ix4 (0 : Fin 1) (rowOf t p) u d) := by
  obtain ⟨e0, e1, e2, e3, -, -, -, -⟩ := block_positions t
  show V m c main_arg1 (((cfg0.win 0).blk t).view.emb (ix4 (0 : Fin 1) p u d)) = _
  refine congrArg (V m c main_arg1) ?_
  funext a; apply Fin.ext
  match a with
  | ⟨0, _⟩ => show win0_0.index t (0 : Fin 4) * 1 + 1 * 0 = 0; omega
  | ⟨1, _⟩ => show win0_0.index t (1 : Fin 4) * 32 + 1 * p.val = t.val * 32 + p.val; omega
  | ⟨2, _⟩ => show win0_0.index t (2 : Fin 4) * 64 + 1 * u.val = u.val; omega
  | ⟨3, _⟩ => show win0_0.index t (3 : Fin 4) * 2048 + 1 * d.val = d.val; omega

/-- The support block at every point is the whole array of pooled support rows. -/
theorem support_block_read (c : Dev nD) (t : Fin cfg0.N) (s : Fin 5) (d : Fin 2048) :
    iblk m c 1 t (ix2 s d) = V m c main_v3 (ix2 s d) := by
  obtain ⟨-, -, -, -, e0, e1, -, -⟩ := block_positions t
  show V m c main_v3 (((cfg0.win 1).blk t).view.emb (ix2 s d)) = _
  refine congrArg (V m c main_v3) ?_
  funext a; apply Fin.ext
  match a with
  | ⟨0, _⟩ => show win0_1.index t (0 : Fin 2) * 5 + 1 * s.val = s.val; omega
  | ⟨1, _⟩ => show win0_1.index t (1 : Fin 2) * 2048 + 1 * d.val = d.val; omega

/-- Entry (p, s) of the output block at point t is entry (32t + p, s) of the output array. -/
theorem out_block_pos (t : Fin cfg0.N) (p : Fin 32) (s : Fin 5) :
    ((cfg0.win 2).blk t).view.emb (ix2 p s) = ix2 (rowOf t p) s := by
  obtain ⟨-, -, -, -, -, -, e0, e1⟩ := block_positions t
  funext a; apply Fin.ext
  match a with
  | ⟨0, _⟩ => show win0_2.index t (0 : Fin 2) * 32 + 1 * p.val = t.val * 32 + p.val; omega
  | ⟨1, _⟩ => show win0_2.index t (1 : Fin 2) * 5 + 1 * s.val = s.val; omega

/-- What point t writes back is block t of the one table of the query array and the support rows. -/
theorem flushed_eq (c : Dev nD) (t : Fin cfg0.N) :
    (dats m 0 c).flushed 2 t
      = ((cfg0.win 2).blk t).view.read (Elt Ideal) (tableOf (V m c main_arg1) (V m c main_v3)) := by
  show (cfg0.win 2).cut (grid0.coords t) ((dats m 0 c).after 2 t) = _
  rw [after0_2]
  unfold out0_2
  rw [View.canon_unit_zero zero2]
  simp only [View.ld_unit_zero (S := S1x32x64x2048) zero4, View.ld_unit_zero (S := S5x2048) zero2]
  funext j
  obtain ⟨p, s, rfl⟩ : ∃ (p : Fin 32) (s : Fin 5), j = ix2 p s := ⟨j 0, j 1, eq_ix2 j⟩
  show k0_pay1 (iblk m c 0 t) (iblk m c 1 t) (ix2 p s)
    = tableOf (V m c main_arg1) (V m c main_v3) (((cfg0.win 2).blk t).view.emb (ix2 p s))
  rw [out_block_pos]
  refine (pay_apply (iblk m c 0 t) (iblk m c 1 t) p s).trans ?_
  show _ = cosine (poolMul (rows (V m c main_arg1))) (fun s d => V m c main_v3 (ix2 s d)) (rowOf t p) s
  refine cosine_congr ?_ ?_
  · funext d
    unfold poolMul blockRows rows
    exact congrArg (· * _) (Finset.sum_congr rfl fun u _ => query_block_read m c t p u d)
  · funext d
    exact support_block_read m c t s d

/-- An index of the output array is in point t's block iff each coordinate is in the block's range on its axis. -/
theorem mem_blk (t : Fin cfg0.N) (i : S512x5.Idx) :
    i ∈ ((cfg0.win 2).blk t).view.set
      ↔ ∀ a : Fin 2, win0_2.index t a * S32x5.size a ≤ (i a).val ∧ (i a).val < win0_2.index t a * S32x5.size a + S32x5.size a := by
  show i ∈ ((View.whole main_v4).slice (win0_2.rect t)).set ↔ _
  rw [View.set_slice_whole, Rect.mem_set_unit]
  exact Iff.rfl

/-- Every entry of the output array is written back by some point: row r by point r / 32. -/
theorem covered (i : S512x5.Idx) :
    ∃ t : Fin cfg0.N, (cfg0.win 2).flush t = true ∧ i ∈ ((cfg0.win 2).blk t).view.set := by
  have hi0 : (i 0).val < 512 := (i 0).isLt
  have hi1 : (i 1).val < 5 := (i 1).isLt
  have hlt : (i 0).val / 32 < grid0.N := by rw [N_0]; omega
  obtain ⟨-, -, -, -, -, -, e0, e1⟩ := block_positions ⟨(i 0).val / 32, hlt⟩
  refine ⟨⟨(i 0).val / 32, hlt⟩, flush0_2 _, ?_⟩
  rw [mem_blk]
  intro a
  match a with
  | ⟨0, _⟩ =>
    show win0_2.index ⟨(i 0).val / 32, hlt⟩ (0 : Fin 2) * 32 ≤ (i 0).val
      ∧ (i 0).val < win0_2.index ⟨(i 0).val / 32, hlt⟩ (0 : Fin 2) * 32 + 32
    rw [e0]; show (i 0).val / 32 * 32 ≤ (i 0).val ∧ (i 0).val < (i 0).val / 32 * 32 + 32; omega
  | ⟨1, _⟩ =>
    show win0_2.index ⟨(i 0).val / 32, hlt⟩ (1 : Fin 2) * 5 ≤ (i 1).val
      ∧ (i 1).val < win0_2.index ⟨(i 0).val / 32, hlt⟩ (1 : Fin 2) * 5 + 5
    rw [e1]; omega

/-- The output array after the region is the table of the query array and the support rows as the region finds them. -/
theorem final (c : Dev nD) : (dats m 0 c).arrAt 2 cfg0.N = tableOf (V m c main_arg1) (V m c main_v3) :=
  (dats m 0 c).arrAt_eq_of_cover 2 _ (fun t _ => flushed_eq m c t) covered

end Cert.KernelValue

end
-- ==== Proof.SupportRows.lean ====
/-
  The pooled support rows the region finds.

  Before the region the host sums the support array over its time axis, divides by 64, and re-lays the [1, 5, 2048]
  result as [5, 2048]: entry (s, d) of what the region's second window stages is the quotient-form mean of support
  row s at feature d.
-/
import proofs.«132700_j12781822673485_2_alg».proof.Proof.Gen.KernelIdeal.Frame
import proofs.«132700_j12781822673485_2_alg».proof.Proof.DistSpec
import Idealize.ShloMosaic.Lib.StableHlo.Run
import Idealize.ShloMosaic.Lib.ValueLayout
import Idealize.ShloMosaic.PureOps.Ideal.Laws

noncomputable section

namespace Cert.KernelValue

open Cert.KernelIdeal Cert.KernelIdeal.Gen Idealize.ShloMosaic Idealize.ShloMosaic.ValueIdx Idealize.ShloMosaic.TcCoe
open Idealize.SL.Sem Cert.CosinePool Idealize.ShloMosaic.StableHlo

/-- The host's pooling of the support array, re-laid as [5, 2048]. -/
def pooledSupport (x0 : (⟨S1x5x64x2048, .f32⟩ : BufTy).Contents (Elt Ideal)) : (⟨S5x2048, .f32⟩ : BufTy).Contents (Elt Ideal) :=
  shapeCast _ (Host.divf (F := Ideal)
    (Host.reduceAdd (F := Ideal) x0 (constant (F := Ideal) S_ .f32 0x00000000#32) reducesTo_S1x5x64x2048_S1x5x2048_d2 h_S_)
    (broadcastInDim S1x5x2048 ![] bcast_S_S1x5x2048 (constant (F := Ideal) S_ .f32 0x42800000#32))) shapeCasts_S1x5x2048_S5x2048

/-- Entry (s, d) is the quotient-form mean of support row s at feature d. -/
theorem pooledSupport_apply (x0 : (⟨S1x5x64x2048, .f32⟩ : BufTy).Contents (Elt Ideal)) (s : Fin 5) (d : Fin 2048) :
    pooledSupport x0 (ix2 s d) = poolDiv (rows x0) s d := by
  unfold pooledSupport
  refine (shapeCast_1ab_ab_apply _ shapeCasts_S1x5x2048_S5x2048 s d).trans ?_
  unfold poolDiv rows
  show Ideal.div _ (Ideal.ofBits .f32 0x42800000#32) = _
  refine congrArg (Ideal.div · _) ?_
  simp only [Host.reduceAdd, Ideal.hostReduceAdd_def]
  rw [Ideal.hostReduceAdd_single reducesTo_S1x5x64x2048_S1x5x2048_d2 (by decide)]
  show Ideal.ofBits .f32 0x00000000#32 + _ = _
  rw [ofBits_zero, zero_add]
  refine Finset.sum_congr rfl fun k _ => congrArg x0 ?_
  funext a; apply Fin.ext
  match a with | ⟨0, _⟩ => rfl | ⟨1, _⟩ => rfl | ⟨2, _⟩ => rfl | ⟨3, _⟩ => rfl

variable (m : (ℓ : Loc nD τ sig) → Buf (Elt Ideal) ℓ)

/-- What the region's second window stages is the host's pooling of the support argument. -/
theorem support_rows (c : Dev nD) :
    (V m c main_v3 : (⟨S5x2048, .f32⟩ : BufTy).Contents (Elt Ideal)) = pooledSupport (m ((c.tc : Thread nD τ).loc main_arg0)) := by
  show StableHlo.after hostOps0 (fun b => m (c, b)) (Proc.devRef .tc main_v3) = _
  after_results
  rfl

end Cert.KernelValue

end
-- ==== Proof.Tail.lean ====
/-
  What both programs do with the similarity table once it is there.

  From the [512, 5] table and the 512 integer labels: the rows' log-softmax (shift by the row maximum, exponentiate,
  sum, take the logarithm, subtract); the label of each row wrapped if negative and checked to lie in 0 … 4; the
  log-probability gathered at the label; the mean over the 512 rows, negated — the loss.  And, separately, one minus
  the table.  Both are functions of the table (and the labels) alone, and are never opened.
-/
import proofs.«132700_j12781822673485_2_alg».proof.ReferenceIdeal
import proofs.«132700_j12781822673485_2_alg».proof.Proof.Gen.ReferenceIdeal
import Idealize.ShloMosaic.PureOps.Ideal

noncomputable section

namespace Cert.SharedTail

open Cert.ReferenceIdeal Cert.ReferenceIdeal.Gen Idealize.ShloMosaic

/-- Each row shifted by its maximum (the maximum taken against -∞). -/
def shifted (x : (⟨S512x5, .f32⟩ : BufTy).Contents (Elt Ideal)) : (⟨S512x5, .f32⟩ : BufTy).Contents (Elt Ideal) :=
  subf x (broadcastInDim S512x5 ![0, 1] bcast_S512x1_S512x5_0_1 (broadcastInDim S512x1 ![0] bcast_S512_S512x1_0
    (maximumf (broadcastInDim S512 ![] bcast_S_S512 (constant (F := Ideal) S_ .f32 0xFF800000#32))
      (Host.reduce (FloatOps.maximumf (F := Ideal)) x (constant (F := Ideal) S_ .f32 0xFF800000#32) reducesTo_S512x5_S512_d1 h_S_))))

/-- The rows' log-softmax. -/
def logSoftmax (x : (⟨S512x5, .f32⟩ : BufTy).Contents (Elt Ideal)) : (⟨S512x5, .f32⟩ : BufTy).Contents (Elt Ideal) :=
  subf (shifted x) (broadcastInDim S512x5 ![0, 1] bcast_S512x1_S512x5_0_1 (Host.log (F := Ideal) (broadcastInDim S512x1 ![0] bcast_S512_S512x1_0
    (Host.reduceAdd (F := Ideal) (Host.exp (F := Ideal) (shifted x)) (constant (F := Ideal) S_ .f32 0x00000000#32) reducesTo_S512x5_S512_d1 h_S_))))

/-- The labels as a column. -/
def labelCol (ys : (⟨S512, .i32⟩ : BufTy).Contents (Elt Ideal)) : (⟨S512x1, .i32⟩ : BufTy).Contents (Elt Ideal) :=
  broadcastInDim S512x1 ![0] bcast_S512_S512x1_0 ys

/-- The labels, a negative one wrapped by 5, as gather indices. -/
def labelIdx (ys : (⟨S512, .i32⟩ : BufTy).Contents (Elt Ideal)) : (⟨S512x1x1, .i32⟩ : BufTy).Contents (Elt Ideal) :=
  shapeCast _ (select (cmpi .slt (labelCol ys) (broadcastInDim S512x1 ![] bcast_S_S512x1 (constantI S_ 32 0#32)))
    (addi (labelCol ys) (broadcastInDim S512x1 ![] bcast_S_S512x1 (constantI S_ 32 5#32))) (labelCol ys)) shapeCasts_S512x1_S512x1x1

/-- Whether each wrapped label lies in 0 … 4. -/
def inRange (ys : (⟨S512, .i32⟩ : BufTy).Contents (Elt Ideal)) : (⟨S512x1, .i1⟩ : BufTy).Contents (Elt Ideal) :=
  Host.reduce IntOp.andi
    (andi (cmpi .sge (labelIdx ys) (broadcastInDim S512x1x1 ![] bcast_S_S512x1x1 (constantI S_ 32 0#32)))
      (cmpi .sle (labelIdx ys) (broadcastInDim S512x1x1 ![0, 1, 2] bcast_S1x1x1_S512x1x1_0_1_2
        (broadcastInDim S1x1x1 ![2] bcast_S1_S1x1x1_2 (constantI S1 32 4#32)))))
    (constantI S_ 1 1#1) reducesTo_S512x1x1_S512x1_d2 h_S_

/-- The log-probability of each row's label (the fill value where the label is out of range). -/
def picked (x : (⟨S512x5, .f32⟩ : BufTy).Contents (Elt Ideal)) (ys : (⟨S512, .i32⟩ : BufTy).Contents (Elt Ideal)) :
    (⟨S512x1, .f32⟩ : BufTy).Contents (Elt Ideal) :=
  select (inRange ys) (Host.gather gather_S512x5_S512x1x1_S512x1_n_1_0_0_1_2_11 (logSoftmax x) (labelIdx ys))
    (broadcastInDim S512x1 ![] bcast_S_S512x1 (constant (F := Ideal) S_ .f32 0x7FC00000#32))

/-- The loss: minus the mean over the 512 rows of the picked log-probabilities. -/
def loss (x : (⟨S512x5, .f32⟩ : BufTy).Contents (Elt Ideal)) (ys : (⟨S512, .i32⟩ : BufTy).Contents (Elt Ideal)) :
    (⟨S_, .f32⟩ : BufTy).Contents (Elt Ideal) :=
  Host.negf (F := Ideal) (Host.divf (F := Ideal)
    (Host.reduceAdd (F := Ideal) (picked x ys) (constant (F := Ideal) S_ .f32 0x00000000#32) reducesTo_S512x1_S_d0_1 h_S_)
    (constant (F := Ideal) S_ .f32 0x44000000#32))

/-- One minus the table. -/
def oneMinus (x : (⟨S512x5, .f32⟩ : BufTy).Contents (Elt Ideal)) : (⟨S512x5, .f32⟩ : BufTy).Contents (Elt Ideal) :=
  subf (broadcastInDim S512x5 ![] bcast_S_S512x5 (constant (F := Ideal) S_ .f32 0x3F800000#32)) x

end Cert.SharedTail

end
-- ==== Proof.KernelTail.lean ====
/-
  The kernel program's two results are the shared tail of the array its region leaves.

  After the region the host applies log-softmax, the label gather, the mean and the negation to the region's output
  array, and subtracts that array from one.  Read back operation by operation, the two result buffers are the shared
  tail's two functions of whatever the output array and the label argument hold when the region ends.
-/
import proofs.«132700_j12781822673485_2_alg».proof.Proof.Gen.KernelIdeal.Frame
import proofs.«132700_j12781822673485_2_alg».proof.Proof.Tail
import Idealize.ShloMosaic.Lib.StableHlo.Run

noncomputable section

namespace Cert.KernelValue

open Cert.KernelIdeal Cert.KernelIdeal.Gen Idealize.ShloMosaic Idealize.ShloMosaic.TcCoe
open Idealize.SL.Sem Idealize.ShloMosaic.StableHlo

set_option maxRecDepth 8192 in
set_option maxHeartbeats 4000000 in
/-- The loss buffer after the host's last lines, from any contents: the shared loss of the output array and the labels. -/
theorem tail_loss_of (W : Valuation τ sig (Elt Ideal)) :
    StableHlo.after (List.flatten [hostOps1, hostOps1_1, hostOps1_2, hostOps1_3]) W (Proc.devRef .tc main_v10)
      = Cert.SharedTail.loss (W (Proc.devRef .tc main_v4)) (W (Proc.devRef .tc main_arg2)) := by
  simp only [hostOps1, hostOps1_1, hostOps1_2, hostOps1_3, List.flatten_cons, List.flatten_nil, List.append_nil,
    List.cons_append, List.nil_append]
  after_results_simp
  rfl

set_option maxRecDepth 8192 in
set_option maxHeartbeats 4000000 in
/-- The second result buffer after the host's last lines: one minus the output array. -/
theorem tail_oneMinus_of (W : Valuation τ sig (Elt Ideal)) :
    StableHlo.after (List.flatten [hostOps1, hostOps1_1, hostOps1_2, hostOps1_3]) W (Proc.devRef .tc main_v12)
      = Cert.SharedTail.oneMinus (W (Proc.devRef .tc main_v4)) := by
  simp only [hostOps1, hostOps1_1, hostOps1_2, hostOps1_3, List.flatten_cons, List.flatten_nil, List.append_nil,
    List.cons_append, List.nil_append]
  after_results_simp
  rfl

variable (m : (ℓ : Loc nD τ sig) → Buf (Elt Ideal) ℓ)

/-- The contents the host's last lines start from: the region's output array at what the region left, the label
    argument as launched. -/
theorem region_exit_out (c : Dev nD) :
    Pipeline.withArrays spec0 c (V0 m c) (fun w => (dats m 0 c).arrAt w cfg0.N) (Proc.devRef .tc main_v4)
      = (dats m 0 c).arrAt 2 cfg0.N :=
  Pipeline.withArrays_arr spec0 launch0.win.arr_inj c (V0 m c) (fun w => (dats m 0 c).arrAt w cfg0.N) 2

/-- The label argument is no array of the region: it is as launched. -/
theorem region_exit_labels (c : Dev nD) :
    Pipeline.withArrays spec0 c (V0 m c) (fun w => (dats m 0 c).arrAt w cfg0.N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans
    (V_main_arg2 m c)

/-- The program's first result: the shared loss of the region's output array and the labels. -/
theorem tail_loss (c : Dev nD) :
    Pipeline.afterTail₀ cfgs (dats m) 0 (V0 m) [hostOps1, hostOps1_1, hostOps1_2, hostOps1_3] c main_v10
      = Cert.SharedTail.loss ((dats m 0 c).arrAt 2 cfg0.N) (m ((c.tc : Thread nD τ).loc main_arg2)) := by
  unfold Pipeline.afterTail₀
  rw [← region_exit_out m c, ← region_exit_labels m c]
  exact tail_loss_of _

/-- The program's second result: one minus the region's output array. -/
theorem tail_oneMinus (c : Dev nD) :
    Pipeline.afterTail₀ cfgs (dats m) 0 (V0 m) [hostOps1, hostOps1_1, hostOps1_2, hostOps1_3] c main_v12
      = Cert.SharedTail.oneMinus ((dats m 0 c).arrAt 2 cfg0.N) := by
  unfold Pipeline.afterTail₀
  rw [← region_exit_out m c]
  exact tail_oneMinus_of _

end Cert.KernelValue

end
-- ==== Proof.KernelRun.lean ====
/-
  The kernel program's run, read: its two results as functions of its three arguments.

  The region's output array is the similarity table with the query rows pooled in the product form and the support
  rows pooled by the host in the quotient form; the two poolings agree, so the array is the similarity table of the
  two float arguments, and the program's results are the shared tail of that table.
-/
import proofs.«132700_j12781822673485_2_alg».proof.Proof.Blocks
import proofs.«132700_j12781822673485_2_alg».proof.Proof.SupportRows
import proofs.«132700_j12781822673485_2_alg».proof.Proof.KernelTail

noncomputable section

namespace Cert.KernelValue

open Cert.KernelIdeal Cert.KernelIdeal.Gen Idealize.ShloMosaic Idealize.ShloMosaic.ValueIdx Idealize.ShloMosaic.TcCoe
open Idealize.SL.Sem Cert.CosinePool

/-- With the support rows pooled by the host, the region's table is the similarity table of the two arrays. -/
theorem tableOf_eq_dist (x0 : (⟨S1x5x64x2048, .f32⟩ : BufTy).Contents (Elt Ideal)) (X : (⟨S1x512x64x2048, .f32⟩ : BufTy).Contents (Elt Ideal)) :
    tableOf X (pooledSupport x0) = dist x0 X := by
  funext j
  obtain ⟨q, s, rfl⟩ : ∃ (q : Fin 512) (s : Fin 5), j = ix2 q s := ⟨j 0, j 1, eq_ix2 j⟩
  show cosine (poolMul (rows X)) (fun s d => pooledSupport x0 (ix2 s d)) q s = cosine (poolDiv (rows X)) (poolDiv (rows x0)) q s
  rw [poolMul_eq_poolDiv]
  refine congrArg (fun f => cosine (poolDiv (rows X)) f q s) ?_
  funext s d
  exact pooledSupport_apply x0 s d

variable (m : (ℓ : Loc nD τ sig) → Buf (Elt Ideal) ℓ) (ρ : Dev nD → PrngReg)

/-- The region's output array after the run is the similarity table of the support and query arguments. -/
theorem out_array (c : Dev nD) :
    (dats m 0 c).arrAt 2 cfg0.N = dist (m ((c.tc : Thread nD τ).loc main_arg0)) (m ((c.tc : Thread nD τ).loc main_arg1)) := by
  rw [final, V_main_arg1, support_rows]
  exact tableOf_eq_dist _ _

/-- Every weakly fair execution of the kernel program terminates with the loss and one minus the table at the shared
    tail of the similarity table of its arguments, and the arguments unchanged. -/
theorem run : θ_run defs (onTc (τ := τ) (main (F := Ideal))) ⟨m, fun _ => 0, ρ⟩ (fun r => ∀ c : Dev nD,
      r.2.mem ((c.tc : Thread nD τ).loc main_v10)
        = Cert.SharedTail.loss (dist (m ((c.tc : Thread nD τ).loc main_arg0)) (m ((c.tc : Thread nD τ).loc main_arg1)))
            (m ((c.tc : Thread nD τ).loc main_arg2))
      ∧ r.2.mem ((c.tc : Thread nD τ).loc main_v12)
        = Cert.SharedTail.oneMinus (dist (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨
      ((h c).2 main_v10 (Pipeline.mem_restRefs_of main_v10 (by decide) (by decide))).trans
        ((tail_loss m c).trans (by rw [out_array])),
      ((h c).2 main_v12 (Pipeline.mem_restRefs_of main_v12 (by decide) (by decide))).trans
        ((tail_oneMinus m c).trans (by rw [out_array])),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelValue

end
-- ==== Proof.RefDist.lean ====
/-
  The reference computes the similarity table.

  Its stages, read at an index: the two poolings are quotients by 64 of sums over the time axis; the numerator is the
  contraction over the feature axis; each norm is the square root of a row's sum of squares; the denominator is the
  larger of the product of norms and ε; the quotient is then re-laid from [1, 512, 5] to [512, 5].
-/
import proofs.«132700_j12781822673485_2_alg».proof.Proof.Gen.ReferenceIdeal.Read
import proofs.«132700_j12781822673485_2_alg».proof.Proof.DistSpec

noncomputable section

namespace Cert.RefDist

open Cert.ReferenceIdeal Cert.ReferenceIdeal.Read Idealize.ShloMosaic Idealize.ShloMosaic.ValueIdx Cert.CosinePool

variable (x0 : (⟨S1x5x64x2048, .f32⟩ : BufTy).Contents (Elt Ideal)) (x1 : (⟨S1x512x64x2048, .f32⟩ : BufTy).Contents (Elt Ideal))

/-- The pooled support rows. -/
theorem sp_apply (s : Fin 5) (d : Fin 2048) :
    val_main_v2 (F := Ideal) x0 (ix3 (0 : Fin 1) s d) = poolDiv (rows x0) s d := by
  rw [val_main_v2_apply, val_main_v0_apply, val_main_v1_apply]
  show Ideal.div (Ideal.ofBits .f32 0x00000000#32 + ∑ k : Fin 64, x0 (idx_main_v0 (ix3 (0 : Fin 1) s d) k)) (Ideal.ofBits .f32 0x42800000#32) = _
  rw [ofBits_zero, zero_add]
  unfold poolDiv rows
  refine congrArg (Ideal.div · _) (Finset.sum_congr rfl fun k _ => congrArg x0 ?_)
  funext a; match a with | ⟨0, _⟩ => rfl | ⟨1, _⟩ => rfl | ⟨2, _⟩ => rfl | ⟨3, _⟩ => rfl

/-- The pooled query rows. -/
theorem qp_apply (q : Fin 512) (d : Fin 2048) :
    val_main_v5 (F := Ideal) x1 (ix3 (0 : Fin 1) q d) = poolDiv (rows x1) q d := by
  rw [val_main_v5_apply, val_main_v3_apply, val_main_v4_apply]
  show Ideal.div (Ideal.ofBits .f32 0x00000000#32 + ∑ k : Fin 64, x1 (idx_main_v3 (ix3 (0 : Fin 1) q d) k)) (Ideal.ofBits .f32 0x42800000#32) = _
  rw [ofBits_zero, zero_add]
  unfold poolDiv rows
  refine congrArg (Ideal.div · _) (Finset.sum_congr rfl fun k _ => congrArg x1 ?_)
  funext a; match a with | ⟨0, _⟩ => rfl | ⟨1, _⟩ => rfl | ⟨2, _⟩ => rfl | ⟨3, _⟩ => rfl

/-- The numerator: the contraction of a pooled query row with a pooled support row over the feature axis. -/
theorem num_apply (q : Fin 512) (s : Fin 5) :
    val_main_v6 (F := Ideal) x0 x1 (ix3 (0 : Fin 1) q s) = ∑ d : Fin 2048, poolDiv (rows x1) q d * poolDiv (rows x0) s d := by
  rw [val_main_v6_apply]
  refine Finset.sum_congr rfl fun d _ => ?_
  rw [← qp_apply, ← sp_apply]
  refine congrArg₂ (· * ·) (congrArg _ ?_) (congrArg _ ?_)
  · funext a; match a with | ⟨0, _⟩ => rfl | ⟨1, _⟩ => rfl | ⟨2, _⟩ => rfl
  · funext a; match a with | ⟨0, _⟩ => rfl | ⟨1, _⟩ => rfl | ⟨2, _⟩ => rfl

/-- The norm of a pooled query row. -/
theorem qn_apply (q : Fin 512) :
    val_main_v7 (F := Ideal) x1 (ix2 (0 : Fin 1) q) = Ideal.sqrt (∑ d : Fin 2048, poolDiv (rows x1) q d * poolDiv (rows x1) q d) := by
  rw [val_main_v7_apply, val_main_call0_v1_apply]
  show Ideal.sqrt (Ideal.ofBits .f32 0x00000000#32 + _) = _
  rw [ofBits_zero, zero_add]
  refine congrArg Ideal.sqrt (Finset.sum_congr rfl fun d _ => ?_)
  rw [val_main_call0_v0_apply, ← qp_apply]
  have e : idx_main_call0_v1 (ix2 (0 : Fin 1) q) d = ix3 (0 : Fin 1) q d := by
    funext a; match a with | ⟨0, _⟩ => rfl | ⟨1, _⟩ => rfl | ⟨2, _⟩ => rfl
  rw [e]; rfl

/-- The norm of a pooled support row. -/
theorem sn_apply (s : Fin 5) :
    val_main_v8 (F := Ideal) x0 (ix2 (0 : Fin 1) s) = Ideal.sqrt (∑ d : Fin 2048, poolDiv (rows x0) s d * poolDiv (rows x0) s d) := by
  rw [val_main_v8_apply, val_main_call1_v1_apply]
  show Ideal.sqrt (Ideal.ofBits .f32 0x00000000#32 + _) = _
  rw [ofBits_zero, zero_add]
  refine congrArg Ideal.sqrt (Finset.sum_congr rfl fun d _ => ?_)
  rw [val_main_call1_v0_apply, ← sp_apply]
  have e : idx_main_call1_v1 (ix2 (0 : Fin 1) s) d = ix3 (0 : Fin 1) s d := by
    funext a; match a with | ⟨0, _⟩ => rfl | ⟨1, _⟩ => rfl | ⟨2, _⟩ => rfl
  rw [e]; rfl

/-- The denominator: the product of the two norms, floored at ε. -/
theorem den_apply (q : Fin 512) (s : Fin 5) :
    val_main_v15 (F := Ideal) x0 x1 (ix3 (0 : Fin 1) q s)
      = max (Ideal.sqrt (∑ d : Fin 2048, poolDiv (rows x1) q d * poolDiv (rows x1) q d)
              * Ideal.sqrt (∑ d : Fin 2048, poolDiv (rows x0) s d * poolDiv (rows x0) s d)) (Ideal.ofBits .f32 0x322BCC77#32) := by
  rw [val_main_v15_apply, val_main_v13_apply, val_main_v11_apply, val_main_v9_apply, val_main_v12_apply, val_main_v10_apply,
    val_main_v14_apply, ← qn_apply, ← sn_apply]
  have e1 : idx_main_v9 (idx_main_v11 (ix3 (0 : Fin 1) q s)) = ix2 (0 : Fin 1) q := by
    funext a; match a with | ⟨0, _⟩ => rfl | ⟨1, _⟩ => rfl
  have e2 : idx_main_v10 (idx_main_v12 (ix3 (0 : Fin 1) q s)) = ix2 (0 : Fin 1) s := by
    funext a; match a with | ⟨0, _⟩ => rfl | ⟨1, _⟩ => rfl
  rw [e1, e2]; rfl

/-- The reference's table is the similarity table of its two arguments. -/
theorem dist_eq : val_main_v17 (F := Ideal) x0 x1 = dist x0 x1 := by
  funext j
  obtain ⟨q, s, rfl⟩ : ∃ (q : Fin 512) (s : Fin 5), j = ix2 q s := ⟨j 0, j 1, eq_ix2 j⟩
  rw [dist_ix2, val_main_v17_apply, val_main_v16_apply]
  have e : idx_main_v17 (ix2 q s) = ix3 (0 : Fin 1) q s := by
    funext a; apply Fin.ext
    have hq := q.isLt; have hs := s.isLt
    match a with
    | ⟨0, _⟩ => rfl
    | ⟨1, _⟩ => show (q.val * 5 + s.val) / 5 % 512 = q.val; omega
    | ⟨2, _⟩ => show (q.val * 5 + s.val) % 5 = s.val; omega
  rw [e, num_apply, den_apply]; rfl

end Cert.RefDist

end
-- ==== Proof.RefTail.lean ====
/-
  The reference's two results are the shared tail of its similarity table.
-/
import proofs.«132700_j12781822673485_2_alg».proof.Proof.Gen.ReferenceIdeal.Read
import proofs.«132700_j12781822673485_2_alg».proof.Proof.Tail

noncomputable section

namespace Cert.RefTail

open Cert.ReferenceIdeal Cert.ReferenceIdeal.Read Idealize.ShloMosaic Cert.SharedTail

variable (x0 : (⟨S1x5x64x2048, .f32⟩ : BufTy).Contents (Elt Ideal)) (x1 : (⟨S1x512x64x2048, .f32⟩ : BufTy).Contents (Elt Ideal))
  (x2 : (⟨S512, .i32⟩ : BufTy).Contents (Elt Ideal))

/-- The reference's loss is the shared loss of its table and the labels. -/
theorem loss_eq : val_main_v23 (F := Ideal) x0 x1 x2 = loss (val_main_v17 (F := Ideal) x0 x1) x2 := rfl

/-- The reference's second result is one minus its table. -/
theorem oneMinus_eq : val_main_v25 (F := Ideal) x0 x1 = oneMinus (val_main_v17 (F := Ideal) x0 x1) := rfl

end Cert.RefTail

end
-- ==== Proof.lean ====
/- The kernel pools 512 query rows and 5 support rows over their 64 time steps, takes the cosine similarity of every
   query row against every support row (the product of norms floored at ε), and returns the cross-entropy loss of the
   rows' log-softmax at the integer labels together with one minus the similarity table.  The kernel pools the query
   rows inside its grid as (sum) · (1/64); the reference divides the sum by 64.  On the extended reals these are one
   function, with no finiteness assumption, so the two similarity tables are equal entry by entry; everything after
   the table is the same sequence of host operations in both programs and is carried as one function of the table.
   The idealization rewrote nothing, so `preserves` is trivial; the three frames are the generated ones. -/
import proofs.«132700_j12781822673485_2_alg».proof.Defs
import proofs.«132700_j12781822673485_2_alg».proof.Proof.Gen.Kernel
import proofs.«132700_j12781822673485_2_alg».proof.Proof.Gen.Kernel.Skeleton
import proofs.«132700_j12781822673485_2_alg».proof.Proof.Gen.Kernel.Launch
import proofs.«132700_j12781822673485_2_alg».proof.Proof.Gen.Kernel.Points
import proofs.«132700_j12781822673485_2_alg».proof.Proof.Gen.Kernel.Frame
import proofs.«132700_j12781822673485_2_alg».proof.Proof.Gen.KernelIdeal
import proofs.«132700_j12781822673485_2_alg».proof.Proof.Gen.KernelIdeal.Skeleton
import proofs.«132700_j12781822673485_2_alg».proof.Proof.Gen.KernelIdeal.Launch
import proofs.«132700_j12781822673485_2_alg».proof.Proof.Gen.KernelIdeal.Points
import proofs.«132700_j12781822673485_2_alg».proof.Proof.Gen.KernelIdeal.Frame
import proofs.«132700_j12781822673485_2_alg».proof.Proof.Gen.ReferenceIdeal
import proofs.«132700_j12781822673485_2_alg».proof.Proof.Gen.ReferenceIdeal.Run
import proofs.«132700_j12781822673485_2_alg».proof.Proof.Gen.ReferenceIdeal.Read
import proofs.«132700_j12781822673485_2_alg».proof.Proof.Gen.Pre_finite_inputs
import proofs.«132700_j12781822673485_2_alg».proof.Proof.KernelRun
import proofs.«132700_j12781822673485_2_alg».proof.Proof.RefDist
import proofs.«132700_j12781822673485_2_alg».proof.Proof.RefTail
import Idealize.ShloMosaic.Adequacy
import Idealize.ShloMosaic.Init

noncomputable section

namespace Cert.Proof

open Idealize.ShloMosaic Idealize.SL.Sem Cert.Kernel

/-- From memories agreeing on the arguments both idealized programs end with the shared tail of the similarity table of
    the arguments: the kernel program by its run read back, the reference by its generated run and its stages read
    at an index. -/
theorem algebraic : Cert.algebraic_KernelIdeal_ReferenceIdeal := by
  intro m ρ m' ρ' _ hagree
  refine ⟨_, _, Cert.KernelValue.run m ρ, ?_⟩
  refine (θ_run Cert.ReferenceIdeal.defs _ _).mono (fun _ h c => ⟨?_, ?_, (h c).2.2.1, (h c).2.2.2.1, (h c).2.2.2.2⟩)
    (Cert.ReferenceIdeal.Value.run (F := Ideal) m' ρ')
  · rw [(h c).1, Cert.ReferenceIdeal.Read.val_main_v23_eq, Cert.RefTail.loss_eq, Cert.RefDist.dist_eq,
      (hagree c).1, (hagree c).2.1, (hagree c).2.2]
  · rw [(h c).2.1, Cert.ReferenceIdeal.Read.val_main_v25_eq, Cert.RefTail.oneMinus_eq, Cert.RefDist.dist_eq,
      (hagree c).1, (hagree c).2.1]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2)
    (Cert.ReferenceIdeal.Value.run (F := Ideal) m ρ),
  trivial,
  algebraic⟩

end Cert.Proof

end
